-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S10000x512 .f32) (main_arg1 : FVec F S10000x10000 .f32) (main_arg2 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S10000x512 : Shape := ⟨2, ![10000, 512]⟩
abbrev S10000x10000 : Shape := ⟨2, ![10000, 10000]⟩
abbrev S512x512 : Shape := ⟨2, ![512, 512]⟩
abbrev S2000x512 : Shape := ⟨2, ![2000, 512]⟩
abbrev S400x10000 : Shape := ⟨2, ![400, 10000]⟩
abbrev S400x512 : Shape := ⟨2, ![400, 512]⟩

abbrev nBuf : Space → Nat
  | .hbm => 7
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .bf16⟩
  | .hbm, ⟨4, _⟩ => ⟨S512x512, .bf16⟩
  | .hbm, ⟨5, _⟩ => ⟨S10000x512, .bf16⟩
  | .hbm, ⟨6, _⟩ => ⟨S10000x512, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x512, .bf16⟩
  | .local _ .vmem, ⟨4, _⟩ => ⟨S2000x512, .bf16⟩
  | .local _ .vmem, ⟨5, _⟩ => ⟨S10000x512, .bf16⟩
  | .local _ .vmem, ⟨6, _⟩ => ⟨S400x10000, .f32⟩
  | .local _ .vmem, ⟨7, _⟩ => ⟨S400x10000, .f32⟩
  | .local _ .vmem, ⟨8, _⟩ => ⟨S400x512, .f32⟩
  | .local _ .vmem, ⟨9, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S400x512_S400x512_0_0 : ∀ a, (![0, 0] : Fin 2 → Nat) a + S400x512.size a ≤ S400x512.size a
  h_S400x512 : 0 < S400x512.numel
  dot_S2000x512_S512x512_S2000x512_1_0_0_1_n_n_wf : DotDims.WF S2000x512 S512x512 S2000x512 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x512.size a ≤ S10000x512.size a
  hwx1_0 : ∀ i : grid1.Coords, EltTy.bits .bf16 = 32 ∨ (Rect.block (s := S10000x512) S10000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x512.size a ≤ S10000x512.size a
  hwx1_2 : ∀ i : grid1.Coords, EltTy.bits .f32 = 32 ∨ (Rect.block (s := S10000x512) S400x512.size (cc1_transform_2 i) (hinb1_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S10000x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S400x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .f32⟩
  | .hbm, ⟨4, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x10000_S10000x512_S10000x512_1_0_0_1_n_n_wf : DotDims.WF S10000x10000 S10000x512 S10000x512 [1] [0] [0] [1] [] []
  dot_S10000x512_S512x512_S10000x512_1_0_0_1_n_n_wf : DotDims.WF S10000x512 S512x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.FiniteInputs.lean ====
/-
  The precondition read entry by entry.

  The precondition says of each of the three input arrays that `|x| < +∞` at every entry, the three statements joined
  by `and`. An extended real whose absolute value `max x (-x)` is below `+∞` is neither infinity, so it is the cast
  of a real number: under the precondition every entry of every input is a real number.
-/
import proofs.«174483_g12962211299516_cont_fleet_409_15_alg».proof.Pre_finite_inputs
import proofs.«174483_g12962211299516_cont_fleet_409_15_alg».proof.Proof.Gen.Pre_finite_inputs
import Idealize.ShloMosaic.Lib.ValueIdx
import Idealize.ShloMosaic.Lib.ReduceAll
import Idealize.ShloMosaic.Lib.Affine

noncomputable section

namespace Cert.Pre_finite_inputs.Entries

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- An extended real whose absolute value is below `+∞` is the cast of a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three inputs is a real number. -/
theorem entries_real (x0 : FVec Ideal S10000x512 .f32) (x1 : FVec Ideal S10000x10000 .f32) (x2 : FVec Ideal S512x512 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt_top (x0 i) (Host.reduce_andi_all _ _ _ _ ix0 h0' i)
  · exact real_of_abs_lt_top (x1 i) (Host.reduce_andi_all _ _ _ _ ix0 h1 i)
  · exact real_of_abs_lt_top (x2 i) (Host.reduce_andi_all _ _ _ _ ix0 h2 i)

end Cert.Pre_finite_inputs.Entries

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.TripleProduct.lean ====
/-
  The product of three matrices, bracketed both ways.

  With `adj` a 10000×10000 matrix, `feat` a 10000×512 matrix and `w` a 512×512 matrix, the entry (i, j) of
  `adj · (feat · w)` is `∑ k, adj (i, k) · ∑ l, feat (k, l) · w (l, j)` and the entry (i, j) of `(adj · feat) · w` is
  `∑ l, (∑ k, adj (i, k) · feat (k, l)) · w (l, j)`. Over the reals the two agree: distribute, exchange the two finite
  sums, reassociate each term. On the extended reals distributivity fails at the infinities, so the equation is stated
  for matrices whose entries are all casts of real numbers, where it is the real identity read through the cast.
-/
import Idealize.ShloMosaic.Lib.ValueIdx
import proofs.«174483_g12962211299516_cont_fleet_409_15_alg».proof.Proof.LibRealSums

noncomputable section

namespace Cert.TripleProduct

open Idealize.ShloMosaic Idealize.ShloMosaic.ValueIdx

/-- The product `X · w` of a 10000×512 matrix by a 512×512 matrix, entry by entry. -/
def timesWeight (X : (⟨2, ![10000, 512]⟩ : Shape).Idx → EReal) (w : (⟨2, ![512, 512]⟩ : Shape).Idx → EReal) :
    (⟨2, ![10000, 512]⟩ : Shape).Idx → EReal :=
  fun i => ∑ l : Fin 512, X (ix2 (i 0) l) * w (ix2 l (i 1))

/-- The product `adj · X` of the 10000×10000 matrix by a 10000×512 matrix, entry by entry. -/
def adjTimes (adj : (⟨2, ![10000, 10000]⟩ : Shape).Idx → EReal) (X : (⟨2, ![10000, 512]⟩ : Shape).Idx → EReal) :
    (⟨2, ![10000, 512]⟩ : Shape).Idx → EReal :=
  fun i => ∑ k : Fin 10000, adj (ix2 (i 0) k) * X (ix2 k (i 1))

theorem timesWeight_apply (X : (⟨2, ![10000, 512]⟩ : Shape).Idx → EReal) (w : (⟨2, ![512, 512]⟩ : Shape).Idx → EReal)
    (p : Fin 10000) (q : Fin 512) : timesWeight X w (ix2 p q) = ∑ l : Fin 512, X (ix2 p l) * w (ix2 l q) := rfl

theorem adjTimes_apply (adj : (⟨2, ![10000, 10000]⟩ : Shape).Idx → EReal) (X : (⟨2, ![10000, 512]⟩ : Shape).Idx → EReal)
    (p : Fin 10000) (q : Fin 512) : adjTimes adj X (ix2 p q) = ∑ k : Fin 10000, adj (ix2 p k) * X (ix2 k q) := rfl

/-- `(adj · feat) · w = adj · (feat · w)` when every entry of the three matrices is a real number. -/
theorem assoc (feat : (⟨2, ![10000, 512]⟩ : Shape).Idx → EReal) (adj : (⟨2, ![10000, 10000]⟩ : Shape).Idx → EReal)
    (w : (⟨2, ![512, 512]⟩ : Shape).Idx → EReal)
    (hf : ∀ i, ∃ r : ℝ, feat i = (r : EReal)) (ha : ∀ i, ∃ r : ℝ, adj i = (r : EReal))
    (hw : ∀ i, ∃ r : ℝ, w i = (r : EReal)) :
    timesWeight (adjTimes adj feat) w = adjTimes adj (timesWeight feat w) := by
  choose f hf using hf
  choose a ha using ha
  choose v hv using hw
  funext i
  obtain ⟨p, q, rfl⟩ : ∃ (p : Fin 10000) (q : Fin 512), i = ix2 p q := ⟨i 0, i 1, eq_ix2 i⟩
  rw [timesWeight_apply, adjTimes_apply]
  simp only [adjTimes_apply, timesWeight_apply, hf, ha, hv]
  exact Cert.RealSums.assoc_row_col_coe (fun k => a (ix2 p k)) (fun k l => f (ix2 k l)) (fun l => v (ix2 l q))

end Cert.TripleProduct

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.ReferenceProduct.lean ====
/-
  The reference's result, entry by entry.

  The reference multiplies the adjacency matrix by the feature matrix and the product by the weight matrix, both as
  plain host products with no accumulator. At the ideal values its result at the entry (i, j) is therefore
  `∑ l, (∑ k, adj (i, k) · feat (k, l)) · w (l, j)`: the triple product bracketed to the left.
-/
import proofs.«174483_g12962211299516_cont_fleet_409_15_alg».proof.Proof.Gen.ReferenceIdeal.Run
import proofs.«174483_g12962211299516_cont_fleet_409_15_alg».proof.Proof.LibHostDot
import proofs.«174483_g12962211299516_cont_fleet_409_15_alg».proof.Proof.TripleProduct

noncomputable section

namespace Cert.ReferenceIdeal.Product

open Idealize.ShloMosaic Idealize.ShloMosaic.ValueIdx Cert.ReferenceIdeal Cert.ReferenceIdeal.Gen Cert.TripleProduct

/-- The two host products of the reference, composed, are `(adj · feat) · w` entry by entry. -/
theorem result_eq (feat : FVec Ideal S10000x512 .f32) (adj : FVec Ideal S10000x10000 .f32) (w : FVec Ideal S512x512 .f32) :
    Host.dotGeneral dot_S10000x512_S512x512_S10000x512_1_0_0_1_n_n none
        (Host.dotGeneral dot_S10000x10000_S10000x512_S10000x512_1_0_0_1_n_n none adj feat) w
      = timesWeight (adjTimes adj feat) w := by
  funext i
  obtain ⟨p, q, rfl⟩ : ∃ (p : Fin 10000) (q : Fin 512), i = ix2 p q := ⟨i 0, i 1, eq_ix2 i⟩
  show Host.dotGeneral (DotDims.plain 10000 512 512) none
      (Host.dotGeneral (DotDims.plain 10000 10000 512) none adj feat) w (ix2 p q) = _
  rw [Cert.HostDot.dotGeneral_plain_apply, timesWeight_apply]
  refine Finset.sum_congr rfl fun l _ => ?_
  rw [Cert.HostDot.dotGeneral_plain_apply, adjTimes_apply]

end Cert.ReferenceIdeal.Product

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.FeatureWeightBlocks.lean ====
/-
  The first region's array: features times weight.

  The first kernel runs over five grid points. At point `t` it reads rows `2000·t … 2000·t + 1999` of the (converted)
  feature matrix and the whole (converted) weight matrix, multiplies them into a zero accumulator, and writes the
  2000×512 product back as rows `2000·t …` of its output. A change of float format is the identity at the ideal
  values, so entry (p, q) of the block written at `t` is `∑ l, feat (2000·t + p, l) · w (l, q)`: the block is the
  restriction of the one matrix `feat · w` to those rows. The five blocks tile the 10000 rows (row `r` lies in block
  `r / 2000`), so after the region the output array is `feat · w`, whatever it held before.
-/
import proofs.«174483_g12962211299516_cont_fleet_409_15_alg».proof.Proof.Gen.KernelIdeal.Frame
import proofs.«174483_g12962211299516_cont_fleet_409_15_alg».proof.Proof.LibPlainDot
import proofs.«174483_g12962211299516_cont_fleet_409_15_alg».proof.Proof.TripleProduct
import Idealize.ShloMosaic.Lib.Pipeline.Value
import Idealize.ShloMosaic.Lib.ValueIdx

set_option maxRecDepth 16384

noncomputable section

namespace Cert.KernelIdeal.FeatureWeight

open Idealize.ShloMosaic Idealize.ShloMosaic.TcCoe Idealize.ShloMosaic.ValueIdx Idealize.SL.Sem
open Cert.KernelIdeal Cert.KernelIdeal.Gen Cert.TripleProduct
open Idealize.ShloMosaic.Pipeline (Dat)

/-! ## The body's product at an entry -/

theorem offset_zero : (![0, 0] : Fin 2 → Nat) = fun _ => 0 := funext fun a => by fin_cases a <;> rfl

/-- Entry (p, q) of what the body stores: row `p` of the loaded feature block against column `q` of the loaded
    weight. The two shape casts are between equal shapes and the final narrowing is the identity. -/
theorem product_apply (x0 : Vec Ideal S2000x512 .bf16) (x1 : Vec Ideal S512x512 .bf16) (p : Fin 2000) (q : Fin 512) :
    k0_pay1 (F := Ideal) x0 x1 (ix2 p q) = ∑ l : Fin 512, x0 (ix2 p l) * x1 (ix2 l q) := by
  show matmul (DotDims.plain 2000 512 512) none (shapeCast S2000x512 x0 shapeCasts_S2000x512_S2000x512)
      (shapeCast S512x512 x1 shapeCasts_S512x512_S512x512)
      (constant (F := Ideal) ⟨2, ![2000, 512]⟩ .f32 0x00000000#32) (ix2 p q) = _
  rw [Cert.PlainDot.matmul_zero_plain_apply, shapeCast_self, shapeCast_self]

/-! ## Where the blocks sit in their arrays -/

/-- The printed index maps over the five points: the feature and output windows move one block of rows per point, the
    weight window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block at point `t`, as a row of the whole array. -/
def rowAt (t : Fin cfg0.N) (p : Fin 2000) : Fin 10000 :=
  ⟨t.val * 2000 + p.val, by have ht : t.val < 5 := t.isLt; have hp := p.isLt; omega⟩

variable (V : (c : Dev nD) → (b : Ref sig .tc) → Buf (Elt Ideal) ((c : Thread nD τ).loc b))

/-- The feature window's block at `t` is rows `2000·t …` of its array. -/
theorem feat_block (c : Dev nD) (t : Fin cfg0.N) (p : Fin 2000) (l : Fin 512) :
    iblk0 V c 0 t (ix2 p l) = (V c main_v0 : S10000x512.Idx → EReal) (ix2 (rowAt t p) l) := by
  obtain ⟨e0, e1, -, -, -, -⟩ := index_facts t
  show (V c main_v0 : S10000x512.Idx → EReal) (((cfg0.win 0).blk t).view.emb (ix2 p l)) = _
  refine congrArg (V c main_v0 : S10000x512.Idx → EReal) ?_
  funext a; apply Fin.ext
  match a with
  | ⟨0, _⟩ => show win0_0.index t (0 : Fin 2) * 2000 + 1 * p.val = t.val * 2000 + p.val; omega
  | ⟨1, _⟩ => show win0_0.index t (1 : Fin 2) * 512 + 1 * l.val = l.val; omega

/-- The weight window's block is its whole array at every point. -/
theorem weight_block (c : Dev nD) (t : Fin cfg0.N) (l q : Fin 512) :
    iblk0 V c 1 t (ix2 l q) = (V c main_v1 : S512x512.Idx → EReal) (ix2 l q) := by
  obtain ⟨-, -, e2, e3, -, -⟩ := index_facts t
  show (V c main_v1 : S512x512.Idx → EReal) (((cfg0.win 1).blk t).view.emb (ix2 l q)) = _
  refine congrArg (V c main_v1 : S512x512.Idx → EReal) ?_
  funext a; apply Fin.ext
  match a with
  | ⟨0, _⟩ => show win0_1.index t (0 : Fin 2) * 512 + 1 * l.val = l.val; omega
  | ⟨1, _⟩ => show win0_1.index t (1 : Fin 2) * 512 + 1 * q.val = q.val; omega

/-- Entry (p, q) of the output block at `t`, as an index of the output array. -/
theorem out_index (t : Fin cfg0.N) (p : Fin 2000) (q : Fin 512) :
    ((cfg0.win 2).blk t).view.emb (ix2 p q) = (ix2 (rowAt t p) q : S10000x512.Idx) := by
  obtain ⟨-, -, -, -, e4, e5⟩ := index_facts t
  funext a; apply Fin.ext
  match a with
  | ⟨0, _⟩ => show win0_2.index t (0 : Fin 2) * 2000 + 1 * p.val = t.val * 2000 + p.val; omega
  | ⟨1, _⟩ => show win0_2.index t (1 : Fin 2) * 512 + 1 * q.val = q.val; omega

/-! ## What a point writes back, and the whole array -/

/-- At an index `y` of the block, the body's product of the two windows' blocks at `t` is `feat · w` at the array
    index `y` stands for. -/
theorem block_value (c : Dev nD) (t : Fin cfg0.N) (y : S2000x512.Idx) :
    k0_pay1 (F := Ideal) (iblk0 V c 0 t) (iblk0 V c 1 t) y
      = timesWeight (V c main_v0 : S10000x512.Idx → EReal) (V c main_v1 : S512x512.Idx → EReal)
          (((cfg0.win 2).blk t).view.emb y) := by
  obtain ⟨p, q, rfl⟩ : ∃ (p : Fin 2000) (q : Fin 512), y = ix2 p q := ⟨y 0, y 1, eq_ix2 y⟩
  refine (product_apply (iblk0 V c 0 t) (iblk0 V c 1 t) p q).trans ?_
  rw [out_index, timesWeight_apply]
  refine Finset.sum_congr rfl fun l _ => ?_
  rw [feat_block, weight_block]

/-- What point `t` writes back is block `t` of `feat · w`, of the arrays as the region finds them. -/
theorem flushed_eq (c : Dev nD) (t : Fin cfg0.N) :
    (dat0 V c).flushed 2 t = ((cfg0.win 2).blk t).view.read (Elt Ideal)
      (timesWeight (V c main_v0 : S10000x512.Idx → EReal) (V c main_v1 : S512x512.Idx → EReal)) := by
  show (cfg0.win 2).cut (grid0.coords t) ((dat0 V c).after 2 t) = _
  rw [after0_2]
  unfold out0_2
  rw [View.canon_unit_zero offset_zero]
  simp only [View.ld_unit_zero (S := S2000x512) offset_zero, View.ld_unit_zero (S := S512x512) offset_zero]
  funext j
  exact block_value V c t j

/-- An index of the output array is in point `t`'s block iff each coordinate is in the block's range on its axis. -/
theorem mem_block (t : Fin cfg0.N) (i : S10000x512.Idx) :
    i ∈ ((cfg0.win 2).blk t).view.set ↔ ∀ a : Fin 2, win0_2.index t a * S2000x512.size a ≤ (i a).val
      ∧ (i a).val < win0_2.index t a * S2000x512.size a + S2000x512.size a := by
  show i ∈ ((View.whole main_v2).slice (win0_2.rect t)).set ↔ _
  rw [View.set_slice_whole, Rect.mem_set_unit]
  exact Iff.rfl

/-- Every index of the output array is in the block of the point its row falls in. -/
theorem covered (i : S10000x512.Idx) :
    ∃ t : Fin cfg0.N, (cfg0.win 2).flush t = true ∧ i ∈ ((cfg0.win 2).blk t).view.set := by
  have hi0 : (i 0).val < 10000 := idx2_lt0 i
  have hi1 : (i 1).val < 512 := idx2_lt1 i
  have hq : (i 0).val / 2000 < 5 := by omega
  obtain ⟨-, -, -, -, e4, e5⟩ := index_facts ⟨(i 0).val / 2000, hq⟩
  refine ⟨⟨(i 0).val / 2000, hq⟩, flush0_2 _, ?_⟩
  rw [mem_block]
  intro a
  match a with
  | ⟨0, _⟩ =>
    show win0_2.index ⟨(i 0).val / 2000, hq⟩ (0 : Fin 2) * 2000 ≤ (i 0).val
      ∧ (i 0).val < win0_2.index ⟨(i 0).val / 2000, hq⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, hq⟩ (1 : Fin 2) * 512 ≤ (i 1).val
      ∧ (i 1).val < win0_2.index ⟨(i 0).val / 2000, hq⟩ (1 : Fin 2) * 512 + 512
    rw [e5]
    omega

/-- After the region its output array is `feat · w` of the arrays it found. -/
theorem array_eq (c : Dev nD) :
    (dat0 V c).arrAt 2 cfg0.N
      = timesWeight (V c main_v0 : S10000x512.Idx → EReal) (V c main_v1 : S512x512.Idx → EReal) :=
  (dat0 V c).arrAt_eq_of_cover 2 _ (fun t _ => flushed_eq V c t) covered

end Cert.KernelIdeal.FeatureWeight

end
-- ==== Proof.AdjacencyBlocks.lean ====
/-
  The second region's array: adjacency times the first region's product.

  The second kernel runs over twenty-five grid points. At point `t` it reads rows `400·t … 400·t + 399` of the
  adjacency matrix and the whole 10000×512 array the first region left, multiplies them into a zero accumulator, and
  writes the 400×512 product back as rows `400·t …` of its output. Entry (p, q) of the block written at `t` is
  `∑ k, adj (400·t + p, k) · X (k, q)`: the block is the restriction of the one matrix `adj · X` to those rows. The
  twenty-five blocks tile the 10000 rows (row `r` lies in block `r / 400`), so after the region the output array is
  `adj · X`, whatever it held before.
-/
import proofs.«174483_g12962211299516_cont_fleet_409_15_alg».proof.Proof.Gen.KernelIdeal.Frame
import proofs.«174483_g12962211299516_cont_fleet_409_15_alg».proof.Proof.LibPlainDot
import proofs.«174483_g12962211299516_cont_fleet_409_15_alg».proof.Proof.TripleProduct
import Idealize.ShloMosaic.Lib.Pipeline.Value
import Idealize.ShloMosaic.Lib.ValueIdx

set_option maxRecDepth 16384

noncomputable section

namespace Cert.KernelIdeal.Adjacency

open Idealize.ShloMosaic Idealize.ShloMosaic.TcCoe Idealize.ShloMosaic.ValueIdx Idealize.SL.Sem
open Cert.KernelIdeal Cert.KernelIdeal.Gen Cert.TripleProduct
open Idealize.ShloMosaic.Pipeline (Dat)

/-! ## The body's product at an entry -/

theorem offset_zero : (![0, 0] : Fin 2 → Nat) = fun _ => 0 := funext fun a => by fin_cases a <;> rfl

/-- Entry (p, q) of what the body stores: row `p` of the loaded adjacency block against column `q` of the loaded
    10000×512 array. The shape cast is between equal shapes. -/
theorem product_apply (x0 : Vec Ideal S400x10000 .f32) (x1 : Vec Ideal S10000x512 .bf16) (p : Fin 400) (q : Fin 512) :
    k1_pay1 (F := Ideal) x0 x1 (ix2 p q) = ∑ k : Fin 10000, x0 (ix2 p k) * x1 (ix2 k q) := by
  show matmul (DotDims.plain 400 10000 512) none x0 (shapeCast S10000x512 x1 shapeCasts_S10000x512_S10000x512)
      (constant (F := Ideal) ⟨2, ![400, 512]⟩ .f32 0x00000000#32) (ix2 p q) = _
  rw [Cert.PlainDot.matmul_zero_plain_apply, shapeCast_self]

/-! ## Where the blocks sit in their arrays -/

/-- The printed index maps over the twenty-five points: the adjacency and output windows move one block of rows per
    point, the window on the first region's product stays. -/
theorem index_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the block at point `t`, as a row of the whole array. -/
def rowAt (t : Fin cfg1.N) (p : Fin 400) : Fin 10000 :=
  ⟨t.val * 400 + p.val, by have ht : t.val < 25 := t.isLt; have hp := p.isLt; omega⟩

variable (V : (c : Dev nD) → (b : Ref sig .tc) → Buf (Elt Ideal) ((c : Thread nD τ).loc b))

/-- The window on the first region's product is its whole array at every point. -/
theorem product_block (c : Dev nD) (t : Fin cfg1.N) (k : Fin 10000) (q : Fin 512) :
    iblk1 V c 0 t (ix2 k q) = (V c main_v2 : S10000x512.Idx → EReal) (ix2 k q) := by
  obtain ⟨e0, e1, -, -, -, -⟩ := index_facts t
  show (V c main_v2 : S10000x512.Idx → EReal) (((cfg1.win 0).blk t).view.emb (ix2 k q)) = _
  refine congrArg (V c main_v2 : S10000x512.Idx → EReal) ?_
  funext a; apply Fin.ext
  match a with
  | ⟨0, _⟩ => show win1_0.index t (0 : Fin 2) * 10000 + 1 * k.val = k.val; omega
  | ⟨1, _⟩ => show win1_0.index t (1 : Fin 2) * 512 + 1 * q.val = q.val; omega

/-- The adjacency window's block at `t` is rows `400·t …` of its array. -/
theorem adj_block (c : Dev nD) (t : Fin cfg1.N) (p : Fin 400) (k : Fin 10000) :
    iblk1 V c 1 t (ix2 p k) = (V c main_arg1 : S10000x10000.Idx → EReal) (ix2 (rowAt t p) k) := by
  obtain ⟨-, -, e2, e3, -, -⟩ := index_facts t
  show (V c main_arg1 : S10000x10000.Idx → EReal) (((cfg1.win 1).blk t).view.emb (ix2 p k)) = _
  refine congrArg (V c main_arg1 : S10000x10000.Idx → EReal) ?_
  funext a; apply Fin.ext
  match a with
  | ⟨0, _⟩ => show win1_1.index t (0 : Fin 2) * 400 + 1 * p.val = t.val * 400 + p.val; omega
  | ⟨1, _⟩ => show win1_1.index t (1 : Fin 2) * 10000 + 1 * k.val = k.val; omega

/-- Entry (p, q) of the output block at `t`, as an index of the output array. -/
theorem out_index (t : Fin cfg1.N) (p : Fin 400) (q : Fin 512) :
    ((cfg1.win 2).blk t).view.emb (ix2 p q) = (ix2 (rowAt t p) q : S10000x512.Idx) := by
  obtain ⟨-, -, -, -, e4, e5⟩ := index_facts t
  funext a; apply Fin.ext
  match a with
  | ⟨0, _⟩ => show win1_2.index t (0 : Fin 2) * 400 + 1 * p.val = t.val * 400 + p.val; omega
  | ⟨1, _⟩ => show win1_2.index t (1 : Fin 2) * 512 + 1 * q.val = q.val; omega

/-! ## What a point writes back, and the whole array -/

/-- At an index `y` of the block, the body's product of the two windows' blocks at `t` is `adj · X` at the array
    index `y` stands for. -/
theorem block_value (c : Dev nD) (t : Fin cfg1.N) (y : S400x512.Idx) :
    k1_pay1 (F := Ideal) (iblk1 V c 1 t) (iblk1 V c 0 t) y
      = adjTimes (V c main_arg1 : S10000x10000.Idx → EReal) (V c main_v2 : S10000x512.Idx → EReal)
          (((cfg1.win 2).blk t).view.emb y) := by
  obtain ⟨p, q, rfl⟩ : ∃ (p : Fin 400) (q : Fin 512), y = ix2 p q := ⟨y 0, y 1, eq_ix2 y⟩
  refine (product_apply (iblk1 V c 1 t) (iblk1 V c 0 t) p q).trans ?_
  rw [out_index, adjTimes_apply]
  refine Finset.sum_congr rfl fun k _ => ?_
  rw [adj_block, product_block]

/-- What point `t` writes back is block `t` of `adj · X`, of the arrays as the region finds them. -/
theorem flushed_eq (c : Dev nD) (t : Fin cfg1.N) :
    (dat1 V c).flushed 2 t = ((cfg1.win 2).blk t).view.read (Elt Ideal)
      (adjTimes (V c main_arg1 : S10000x10000.Idx → EReal) (V c main_v2 : S10000x512.Idx → EReal)) := by
  show (cfg1.win 2).cut (grid1.coords t) ((dat1 V c).after 2 t) = _
  rw [after1_2]
  unfold out1_2
  rw [View.canon_unit_zero offset_zero]
  simp only [View.ld_unit_zero (S := S400x10000) offset_zero, View.ld_unit_zero (S := S10000x512) offset_zero]
  funext j
  exact block_value V c t j

/-- An index of the output array is in point `t`'s block iff each coordinate is in the block's range on its axis. -/
theorem mem_block (t : Fin cfg1.N) (i : S10000x512.Idx) :
    i ∈ ((cfg1.win 2).blk t).view.set ↔ ∀ a : Fin 2, win1_2.index t a * S400x512.size a ≤ (i a).val
      ∧ (i a).val < win1_2.index t a * S400x512.size a + S400x512.size a := by
  show i ∈ ((View.whole main_v3).slice (win1_2.rect t)).set ↔ _
  rw [View.set_slice_whole, Rect.mem_set_unit]
  exact Iff.rfl

/-- Every index of the output array is in the block of the point its row falls in. -/
theorem covered (i : S10000x512.Idx) :
    ∃ t : Fin cfg1.N, (cfg1.win 2).flush t = true ∧ i ∈ ((cfg1.win 2).blk t).view.set := by
  have hi0 : (i 0).val < 10000 := idx2_lt0 i
  have hi1 : (i 1).val < 512 := idx2_lt1 i
  have hq : (i 0).val / 400 < 25 := by omega
  obtain ⟨-, -, -, -, e4, e5⟩ := index_facts ⟨(i 0).val / 400, hq⟩
  refine ⟨⟨(i 0).val / 400, hq⟩, flush1_2 _, ?_⟩
  rw [mem_block]
  intro a
  match a with
  | ⟨0, _⟩ =>
    show win1_2.index ⟨(i 0).val / 400, hq⟩ (0 : Fin 2) * 400 ≤ (i 0).val
      ∧ (i 0).val < win1_2.index ⟨(i 0).val / 400, hq⟩ (0 : Fin 2) * 400 + 400
    rw [e4]
    show (i 0).val / 400 * 400 ≤ (i 0).val ∧ (i 0).val < (i 0).val / 400 * 400 + 400
    omega
  | ⟨1, _⟩ =>
    show win1_2.index ⟨(i 0).val / 400, hq⟩ (1 : Fin 2) * 512 ≤ (i 1).val
      ∧ (i 1).val < win1_2.index ⟨(i 0).val / 400, hq⟩ (1 : Fin 2) * 512 + 512
    rw [e5]
    omega

/-- After the region its output array is `adj · X` of the arrays it found. -/
theorem array_eq (c : Dev nD) :
    (dat1 V c).arrAt 2 cfg1.N
      = adjTimes (V c main_arg1 : S10000x10000.Idx → EReal) (V c main_v2 : S10000x512.Idx → EReal) :=
  (dat1 V c).arrAt_eq_of_cover 2 _ (fun t _ => flushed_eq V c t) covered

end Cert.KernelIdeal.Adjacency

end
-- ==== Proof.KernelRun.lean ====
/-
  The kernel program's run, with its result.

  The program converts the features and the weight to a narrower float format (the identity at the ideal values), runs
  the first region, which leaves `feat · w` in an intermediate array, and then the second region, which leaves
  `adj · X` in the result array, `X` being that intermediate array and `adj` the adjacency argument, which nothing
  writes. So every weakly fair execution terminates, faults nowhere, leaves the arguments as launched, and leaves
  `adj · (feat · w)` in the result: the triple product bracketed to the right.
-/
import proofs.«174483_g12962211299516_cont_fleet_409_15_alg».proof.Proof.Gen.KernelIdeal.Frame
import proofs.«174483_g12962211299516_cont_fleet_409_15_alg».proof.Proof.FeatureWeightBlocks
import proofs.«174483_g12962211299516_cont_fleet_409_15_alg».proof.Proof.AdjacencyBlocks
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.TripleProduct

section AnyValues

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    second region's exit has for it and the arguments as launched: the launch over the program's three segments (the
    two converts, the first region, the second region), the final memory read at the result and at each argument. -/
theorem run_to_exit : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end AnyValues

/-! ## The buffers along the way, at the ideal values -/

variable (m : (ℓ : Loc nD τ sig) → Buf (Elt Ideal) ℓ) (ρ : Dev nD → PrngReg)

/-- The converted features are the features. -/
theorem converted_features (c : Dev nD) :
    (V1 m ρ c main_v0 : S10000x512.Idx → EReal) = m ((c.tc : Thread nD τ).loc main_arg0) := by
  show StableHlo.after hostOps0 (W0 m ρ c) (Proc.devRef .tc main_v0) = _
  after_results
  rfl

/-- The converted weight is the weight. -/
theorem converted_weight (c : Dev nD) :
    (V1 m ρ c main_v1 : S512x512.Idx → EReal) = m ((c.tc : Thread nD τ).loc main_arg2) := by
  show StableHlo.after hostOps0 (W0 m ρ c) (Proc.devRef .tc main_v1) = _
  after_results
  rfl

/-- The second region finds the adjacency argument as launched: neither the converts nor the first region write it. -/
theorem adjacency_kept (c : Dev nD) :
    (V2 m ρ c main_arg1 : S10000x10000.Idx → EReal) = m ((c.tc : Thread nD τ).loc main_arg1) := by
  refine (W2_of_ne m ρ c main_arg1 (by decide)).trans ?_
  show StableHlo.after hostOps0 (W0 m ρ c) (Proc.devRef .tc main_arg1) = _
  after_results

/-- The second region finds `feat · w` in the intermediate array. -/
theorem intermediate_eq (c : Dev nD) :
    (V2 m ρ c main_v2 : S10000x512.Idx → EReal)
      = timesWeight (m ((c.tc : Thread nD τ).loc main_arg0)) (m ((c.tc : Thread nD τ).loc main_arg2)) := by
  refine (W2_arr m ρ c 2).trans ?_
  rw [Cert.KernelIdeal.FeatureWeight.array_eq, converted_features, converted_weight]

/-- The result array at the second region's exit is `adj · (feat · w)`. -/
theorem result_eq (c : Dev nD) :
    (W3 m ρ c (Proc.devRef .tc main_v3) : S10000x512.Idx → EReal)
      = adjTimes (m ((c.tc : Thread nD τ).loc main_arg1))
          (timesWeight (m ((c.tc : Thread nD τ).loc main_arg0)) (m ((c.tc : Thread nD τ).loc main_arg2))) := by
  refine (W3_arr m ρ c 2).trans ?_
  rw [Cert.KernelIdeal.Adjacency.array_eq, adjacency_kept, intermediate_eq]

/-- The program's run at the ideal values: the result ends at `adj · (feat · w)`, the arguments as launched. -/
theorem run : θ_run defs (onTc (τ := τ) (main (F := Ideal))) ⟨m, fun _ => 0, ρ⟩ (fun r => ∀ c : Dev nD,
      r.2.mem ((c.tc : Thread nD τ).loc main_v3)
        = adjTimes (m ((c.tc : Thread nD τ).loc main_arg1))
            (timesWeight (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_to_exit m ρ)

end Cert.KernelIdeal.Run

end
-- ==== Proof.lean ====
/-
  The claim: the kernel program against its reference.

  Both programs compute the product of three matrices, the adjacency matrix `adj` (10000×10000), the feature matrix
  `feat` (10000×512) and the weight matrix `w` (512×512). The reference brackets it to the left, `(adj · feat) · w`,
  as two host products. The kernel program brackets it to the right: a first region computes `feat · w` five blocks
  of 2000 rows at a time, a second region multiplies `adj` by that, twenty-five blocks of 400 rows at a time; its
  changes of float format are the identity at the ideal values.

  On the extended reals the two bracketings need not agree: distributing a product over a sum fails at the
  infinities. Under the precondition every entry of the three inputs is finite, a real number, and for real entries
  the two bracketings are the real identity `∑ l, (∑ k, a k · b k l) · c l = ∑ k, a k · ∑ l, b k l · c l` read through
  the cast. That is the one place the precondition is used.

  The three frames are the programs' runs with the result dropped; the idealization rewrote nothing, so the
  preservation claim is trivial.
-/
import proofs.«174483_g12962211299516_cont_fleet_409_15_alg».proof.Defs
import proofs.«174483_g12962211299516_cont_fleet_409_15_alg».proof.Proof.Gen.Kernel
import proofs.«174483_g12962211299516_cont_fleet_409_15_alg».proof.Proof.Gen.Kernel.Frame
import proofs.«174483_g12962211299516_cont_fleet_409_15_alg».proof.Proof.Gen.KernelIdeal
import proofs.«174483_g12962211299516_cont_fleet_409_15_alg».proof.Proof.Gen.KernelIdeal.Frame
import proofs.«174483_g12962211299516_cont_fleet_409_15_alg».proof.Proof.Gen.ReferenceIdeal
import proofs.«174483_g12962211299516_cont_fleet_409_15_alg».proof.Proof.Gen.ReferenceIdeal.Run
import proofs.«174483_g12962211299516_cont_fleet_409_15_alg».proof.Proof.Gen.Pre_finite_inputs
import proofs.«174483_g12962211299516_cont_fleet_409_15_alg».proof.Proof.FiniteInputs
import proofs.«174483_g12962211299516_cont_fleet_409_15_alg».proof.Proof.TripleProduct
import proofs.«174483_g12962211299516_cont_fleet_409_15_alg».proof.Proof.ReferenceProduct
import proofs.«174483_g12962211299516_cont_fleet_409_15_alg».proof.Proof.KernelRun
import Idealize.ShloMosaic.Adequacy
import Idealize.ShloMosaic.Init

noncomputable section

namespace Cert.Proof

open Idealize.ShloMosaic Idealize.ShloMosaic.TcCoe Idealize.SL.Sem Cert.TripleProduct

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel program ends with `adj · (feat · w)` in its result and the
    reference with `(adj · feat) · w`; the entries of the arguments being real numbers, the two are equal. -/
theorem algebraic : Cert.algebraic_KernelIdeal_ReferenceIdeal := by
  intro m ρ m' ρ' hpre hagree
  refine ⟨fun c => adjTimes (m ((c.tc : Thread Cert.KernelIdeal.nD Cert.KernelIdeal.τ).loc Cert.KernelIdeal.main_arg1))
      (timesWeight (m ((c.tc : Thread Cert.KernelIdeal.nD Cert.KernelIdeal.τ).loc Cert.KernelIdeal.main_arg0))
        (m ((c.tc : Thread Cert.KernelIdeal.nD Cert.KernelIdeal.τ).loc Cert.KernelIdeal.main_arg2))),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Product.result_eq]
  obtain ⟨hf, ha, hw⟩ := Cert.Pre_finite_inputs.Entries.entries_real _ _ _ (hpre c)
  exact Cert.TripleProduct.assoc _ _ _ hf ha hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
